-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x5 : Shape := ⟨2, ![512, 5]⟩
abbrev S512x1 : Shape := ⟨2, ![512, 1]⟩
abbrev S1 : Shape := ⟨1, ![1]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x5 : S_.BroadcastsInDim S512x5 (![] : Fin 0 → Fin S512x5.rank)
  reducesTo_S512x5_S_d0_1 : S512x5.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32x4096x512 .f32) (main_arg1 : FVec F S512x5 .f32) (main_arg2 : FVec F S512x1 .f32) (main_arg3 : FVec F S1 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x5 .f32 := Host.absf main_arg1
  let main_cst_0 : FVec F S_ .f32 := constant S_ .f32 0x7F800000#32
  let main_v5 : FVec F S512x5 .f32 := broadcastInDim S512x5 ![] bcast_S_S512x5 main_cst_0
  let main_v6 : IVec S512x5 1 := cmpf .olt main_v4 main_v5
  let main_c_1 : IVec S_ 1 := constantI S_ 1 1#1
  let main_v7 : IVec S_ 1 := (fun x v => Host.reduce IntOp.andi x v reducesTo_S512x5_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32x4096x512 : Shape := ⟨3, ![32, 4096, 512]⟩
abbrev S512x5 : Shape := ⟨2, ![512, 5]⟩
abbrev S512x1 : Shape := ⟨2, ![512, 1]⟩
abbrev S1 : Shape := ⟨1, ![1]⟩
abbrev S32x1x5 : Shape := ⟨3, ![32, 1, 5]⟩
abbrev S32x5x512 : Shape := ⟨3, ![32, 5, 512]⟩
abbrev S1x4096x512 : Shape := ⟨3, ![1, 4096, 512]⟩
abbrev S1x1x5 : Shape := ⟨3, ![1, 1, 5]⟩
abbrev S1x5x512 : Shape := ⟨3, ![1, 5, 512]⟩
abbrev S4096x512 : Shape := ⟨2, ![4096, 512]⟩
abbrev S4096x5 : Shape := ⟨2, ![4096, 5]⟩
abbrev S5 : Shape := ⟨1, ![5]⟩
abbrev S1x5 : Shape := ⟨2, ![1, 5]⟩
abbrev S5x512 : Shape := ⟨2, ![5, 512]⟩
abbrev S5x1 : Shape := ⟨2, ![5, 1]⟩
abbrev S32x5 : Shape := ⟨2, ![32, 5]⟩

abbrev nBuf : Space → Nat
  | .hbm => 8
  | .vmem => 11
  | .smem => 0
  | _ => 0

abbrev bufTy : (tb : Table) → Fin (tcTables nBuf tb) → BufTy
  | .hbm, ⟨0, _⟩ => ⟨S32x4096x512, .f32⟩
  | .hbm, ⟨1, _⟩ => ⟨S512x5, .f32⟩
  | .hbm, ⟨2, _⟩ => ⟨S512x1, .f32⟩
  | .hbm, ⟨3, _⟩ => ⟨S1, .f32⟩
  | .hbm, ⟨4, _⟩ => ⟨S32x1x5, .f32⟩
  | .hbm, ⟨5, _⟩ => ⟨S32x5x512, .f32⟩
  | .hbm, ⟨6, _⟩ => ⟨S32x5x512, .f32⟩
  | .hbm, ⟨7, _⟩ => ⟨S32x5, .f32⟩
  | .local _ .vmem, ⟨0, _⟩ => ⟨S1x4096x512, .f32⟩
  | .local _ .vmem, ⟨1, _⟩ => ⟨S1x4096x512, .f32⟩
  | .local _ .vmem, ⟨2, _⟩ => ⟨S512x5, .f32⟩
  | .local _ .vmem, ⟨3, _⟩ => ⟨S512x1, .f32⟩
  | .local _ .vmem, ⟨4, _⟩ => ⟨S1, .f32⟩
  | .local _ .vmem, ⟨5, _⟩ => ⟨S1x1x5, .f32⟩
  | .local _ .vmem, ⟨6, _⟩ => ⟨S1x1x5, .f32⟩
  | .local _ .vmem, ⟨7, _⟩ => ⟨S1x5x512, .f32⟩
  | .local _ .vmem, ⟨8, _⟩ => ⟨S1x5x512, .f32⟩
  | .local _ .vmem, ⟨9, _⟩ => ⟨S1x5x512, .f32⟩
  | .local _ .vmem, ⟨10, _⟩ => ⟨S1x5x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S512x5_S512x5_0_0 : ∀ a, (![0, 0] : Fin 2 → Nat) a + S512x5.size a ≤ S512x5.size a
  h_S512x5 : 0 < S512x5.numel
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  bitsLt_bf16_f32 : FTy.bits .bf16 < FTy.bits .f32
  reduces_S4096x5_S5 : S4096x5.Reduces [0] S5
  shapeCasts_S5_S1x5 : S5.ShapeCasts S1x5
  broadcasts_S1x5_S4096x5 : S1x5.Broadcasts S4096x5
  shapeCasts_S5x1_S5 : S5x1.ShapeCasts S5
  inpos_S1_p0 : ∀ a, (![0] : Fin 1 → Nat) a < S1.size a
  shapeCasts_S5_S5x1 : S5.ShapeCasts S5x1
  broadcasts_S5x1_S5x512 : S5x1.Broadcasts S5x512
  inb_S1x1x5_S1x1x5_0_0_0 : ∀ a, (![0, 0, 0] : Fin 3 → Nat) a + S1x1x5.size a ≤ S1x1x5.size a
  h_S1x1x5 : 0 < S1x1x5.numel
  shapeCasts_S1x1x5_S1x5 : S1x1x5.ShapeCasts S1x5
  shapeCasts_S1x5_S1x1x5 : S1x5.ShapeCasts S1x1x5
  inb_S1x5x512_S1x5x512_0_0_0 : ∀ a, (![0, 0, 0] : Fin 3 → Nat) a + S1x5x512.size a ≤ S1x5x512.size a
  h_S1x5x512 : 0 < S1x5x512.numel
  shapeCasts_S1x5x512_S5x512 : S1x5x512.ShapeCasts S5x512
  shapeCasts_S5x512_S1x5x512 : S5x512.ShapeCasts S1x5x512
  shapeCasts_S32x1x5_S32x5 : S32x1x5.ShapeCasts S32x5
  dot_S4096x512_S512x5_S4096x5_1_0_0_1_n_n_wf : DotDims.WF S4096x512 S512x5 S4096x5 [1] [0] [0] [1] [] []
  dot_S4096x5_S4096x512_S5x512_0_0_1_1_n_n_wf : DotDims.WF S4096x5 S4096x512 S5x512 [0] [0] [1] [1] [] []
  dot_S5x512_S512x1_S5x1_1_0_0_1_n_n_wf : DotDims.WF S5x512 S512x1 S5x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x4096x512.size a
  hwx0_0 : ∀ i : grid0.Coords, EltTy.bits .f32 = 32 ∨ (Rect.block (s := S32x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S512x5.size a
  hwx0_1 : ∀ i : grid0.Coords, EltTy.bits .f32 = 32 ∨ (Rect.block (s := S512x5) S512x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x5.size a ≤ S32x1x5.size a
  hwx0_4 : ∀ i : grid0.Coords, EltTy.bits .f32 = 32 ∨ (Rect.block (s := S32x1x5) S1x1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5x512.size a ≤ S32x5x512.size a
  hwx0_5 : ∀ i : grid0.Coords, EltTy.bits .f32 = 32 ∨ (Rect.block (s := S32x5x512) S1x5x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x5x512.size a ≤ S32x5x512.size a
  hwx0_6 : ∀ i : grid0.Coords, EltTy.bits .f32 = 32 ∨ (Rect.block (s := S32x5x512) S1x5x512.size (cc0_transform_6 i) (hinb0_6 i)).WholeWords (EltTy.packing .f32)

variable [Facts₀]

def dot_S4096x512_S512x5_S4096x5_1_0_0_1_n_n : DotDims S4096x512 S512x5 S4096x5 where
  lhsContracting := [1]
  rhsContracting := [0]
  lhsNonContracting := [0]
  rhsNonContracting := [1]
  lhsBatch := []
  rhsBatch := []
  wf := dot_S4096x512_S512x5_S4096x5_1_0_0_1_n_n_wf
def dot_S4096x5_S4096x512_S5x512_0_0_1_1_n_n : DotDims S4096x5 S4096x512 S5x512 where
  lhsContracting := [0]
  rhsContracting := [0]
  lhsNonContracting := [1]
  rhsNonContracting := [1]
  lhsBatch := []
  rhsBatch := []
  wf := dot_S4096x5_S4096x512_S5x512_0_0_1_1_n_n_wf
def dot_S5x512_S512x1_S5x1_1_0_0_1_n_n : DotDims S5x512 S512x1 S5x1 where
  lhsContracting := [1]
  rhsContracting := [0]
  lhsNonContracting := [0]
  rhsNonContracting := [1]
  lhsBatch := []
  rhsBatch := []
  wf := dot_S5x512_S512x1_S5x1_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x5.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x5x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x5x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512x5 : Shape := ⟨2, ![512, 5]⟩
abbrev S512x1 : Shape := ⟨2, ![512, 1]⟩
abbrev S1 : Shape := ⟨1, ![1]⟩
abbrev S32x4096x5 : Shape := ⟨3, ![32, 4096, 5]⟩
abbrev S_ : Shape := ⟨0, ![]⟩
abbrev S32x5 : Shape := ⟨2, ![32, 5]⟩
abbrev S32x1x5 : Shape := ⟨3, ![32, 1, 5]⟩
abbrev S32x5x512 : Shape := ⟨3, ![32, 5, 512]⟩
abbrev S32x5x1 : Shape := ⟨3, ![32, 5, 1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x5, .f32⟩
  | .hbm, ⟨2, _⟩ => ⟨S512x1, .f32⟩
  | .hbm, ⟨3, _⟩ => ⟨S1, .f32⟩
  | .hbm, ⟨4, _⟩ => ⟨S32x4096x5, .f32⟩
  | .hbm, ⟨5, _⟩ => ⟨S_, .f32⟩
  | .hbm, ⟨6, _⟩ => ⟨S32x5, .f32⟩
  | .hbm, ⟨7, _⟩ => ⟨S_, .f32⟩
  | .hbm, ⟨8, _⟩ => ⟨S32x5, .f32⟩
  | .hbm, ⟨9, _⟩ => ⟨S32x5, .f32⟩
  | .hbm, ⟨10, _⟩ => ⟨S32x1x5, .f32⟩
  | .hbm, ⟨11, _⟩ => ⟨S32x4096x5, .f32⟩
  | .hbm, ⟨12, _⟩ => ⟨S32x4096x5, .f32⟩
  | .hbm, ⟨13, _⟩ => ⟨S32x4096x5, .f32⟩
  | .hbm, ⟨14, _⟩ => ⟨S_, .f32⟩
  | .hbm, ⟨15, _⟩ => ⟨S32x5, .f32⟩
  | .hbm, ⟨16, _⟩ => ⟨S32x1x5, .f32⟩
  | .hbm, ⟨17, _⟩ => ⟨S32x4096x5, .f32⟩
  | .hbm, ⟨18, _⟩ => ⟨S32x4096x5, .f32⟩
  | .hbm, ⟨19, _⟩ => ⟨S32x5x512, .f32⟩
  | .hbm, ⟨20, _⟩ => ⟨S32x5x1, .f32⟩
  | .hbm, ⟨21, _⟩ => ⟨S1x1x1, .f32⟩
  | .hbm, ⟨22, _⟩ => ⟨S32x5x1, .f32⟩
  | .hbm, ⟨23, _⟩ => ⟨S32x5x1, .f32⟩
  | .hbm, ⟨24, _⟩ => ⟨S32x5x1, .f32⟩
  | .hbm, ⟨25, _⟩ => ⟨S32x5x512, .f32⟩
  | .hbm, ⟨26, _⟩ => ⟨S32x5x512, .f32⟩
  | .hbm, ⟨27, _⟩ => ⟨S32x5, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S32x4096x5_S32x5_d1 : S32x4096x5.ReducesTo [1] S32x5
  h_S_ : 0 < S_.numel
  bcast_S_S32x5 : S_.BroadcastsInDim S32x5 (![] : Fin 0 → Fin S32x5.rank)
  bcast_S32x5_S32x1x5_0_2 : S32x5.BroadcastsInDim S32x1x5 (![0, 2] : Fin 2 → Fin S32x1x5.rank)
  bcast_S32x1x5_S32x4096x5_0_1_2 : S32x1x5.BroadcastsInDim S32x4096x5 (![0, 1, 2] : Fin 3 → Fin S32x4096x5.rank)
  bcast_S1_S1x1x1_2 : S1.BroadcastsInDim S1x1x1 (![2] : Fin 1 → Fin S1x1x1.rank)
  bcast_S1x1x1_S32x5x1_0_1_2 : S1x1x1.BroadcastsInDim S32x5x1 (![0, 1, 2] : Fin 3 → Fin S32x5x1.rank)
  bcast_S32x5x1_S32x5x512_0_1_2 : S32x5x1.BroadcastsInDim S32x5x512 (![0, 1, 2] : Fin 3 → Fin S32x5x512.rank)
  shapeCasts_S32x5x1_S32x5 : S32x5x1.ShapeCasts S32x5
  dot_S32x4096x512_S512x5_S32x4096x5_2_0_01_1_n_n_wf : DotDims.WF S32x4096x512 S512x5 S32x4096x5 [2] [0] [0, 1] [1] [] []
  dot_S32x4096x5_S32x4096x512_S32x5x512_1_1_2_2_0_0_wf : DotDims.WF S32x4096x5 S32x4096x512 S32x5x512 [1] [1] [2] [2] [0] [0]
  dot_S32x5x512_S512x1_S32x5x1_2_0_01_1_n_n_wf : DotDims.WF S32x5x512 S512x1 S32x5x1 [2] [0] [0, 1] [1] [] []

variable [Facts₀]

def dot_S32x4096x512_S512x5_S32x4096x5_2_0_01_1_n_n : DotDims S32x4096x512 S512x5 S32x4096x5 where
  lhsContracting := [2]
  rhsContracting := [0]
  lhsNonContracting := [0, 1]
  rhsNonContracting := [1]
  lhsBatch := []
  rhsBatch := []
  wf := dot_S32x4096x512_S512x5_S32x4096x5_2_0_01_1_n_n_wf
def dot_S32x4096x5_S32x4096x512_S32x5x512_1_1_2_2_0_0 : DotDims S32x4096x5 S32x4096x512 S32x5x512 where
  lhsContracting := [1]
  rhsContracting := [1]
  lhsNonContracting := [2]
  rhsNonContracting := [2]
  lhsBatch := [0]
  rhsBatch := [0]
  wf := dot_S32x4096x5_S32x4096x512_S32x5x512_1_1_2_2_0_0_wf
def dot_S32x5x512_S512x1_S32x5x1_2_0_01_1_n_n : DotDims S32x5x512 S512x1 S32x5x1 where
  lhsContracting := [2]
  rhsContracting := [0]
  lhsNonContracting := [0, 1]
  rhsNonContracting := [1]
  lhsBatch := []
  rhsBatch := []
  wf := dot_S32x5x512_S512x1_S32x5x1_2_0_01_1_n_n_wf

class Facts : Prop extends Facts₀ where

variable [Facts]
-- ==== Proof.Spec.lean ====
/-
  Attention pooling with a tanh gate, one batch element at a time, on the extended reals.

  For a block `x` of 4096 rows of 512 features, a 512 × 5 matrix `W`, a weight column `lw` and a bias `lb`:
    • the logit of row `n` for capsule `c` is the inner product of row `n` with column `c` of `W`;
    • the logits of a capsule are turned into weights by a softmax over the 4096 rows: the largest logit of the
      column (a fold of `max` from −∞) is subtracted, the exponential taken, and each exponential divided by the
      sum of the column's exponentials;
    • the pooled vector of capsule `c` is the weighted sum of the rows;
    • the gate of capsule `c` is `tanh` of the pooled vector's inner product with `lw`, plus `lb`;
    • the scaled vector is the gate times the pooled vector.
  Both programs compute exactly these functions entry by entry; this module only names them, first for one batch
  element over plain coordinates, then for the whole arrays of 32 batch elements.
-/
import Idealize.ShloMosaic.PureOps.Ideal
import Idealize.ShloMosaic.Lib.ValueIdx

noncomputable section

open scoped BigOperators

namespace Cert.GatedPool

open Idealize.ShloMosaic Idealize.ShloMosaic.ValueIdx

/-- The value −∞ as both programs write it: the f32 word `0xFF800000`. The column maximum starts from it. -/
abbrev negInf : EReal := Ideal.ofBits .f32 0xFF800000#32

variable (x : Fin 4096 → Fin 512 → EReal) (W : Fin 512 → Fin 5 → EReal) (lw : Fin 512 → EReal) (lb : EReal)

/-- Row `n`'s logit for capsule `c`: `∑ₖ x n k · W k c`. -/
def logit (n : Fin 4096) (c : Fin 5) : EReal := ∑ k : Fin 512, x n k * W k c

/-- The largest logit of capsule `c` over the rows, as a fold of `max` from −∞. -/
def peak (c : Fin 5) : EReal := (Finset.univ : Finset (Fin 4096)).fold max negInf (fun n => logit x W n c)

/-- The shifted exponential `exp (logit − peak)`. -/
def expo (n : Fin 4096) (c : Fin 5) : EReal := Ideal.exp (logit x W n c - peak x W c)

/-- The softmax denominator of capsule `c`: the sum of its shifted exponentials. -/
def total (c : Fin 5) : EReal := ∑ n : Fin 4096, expo x W n c

/-- The softmax weight of row `n` for capsule `c`. -/
def weight (n : Fin 4096) (c : Fin 5) : EReal := Ideal.div (expo x W n c) (total x W c)

/-- The pooled vector of capsule `c`: `∑ₙ weight n c · x n d`. -/
def pooled (c : Fin 5) (d : Fin 512) : EReal := ∑ n : Fin 4096, weight x W n c * x n d

/-- The gate of capsule `c`: `tanh (∑_d pooled c d · lw d + lb)`. -/
def gate (c : Fin 5) : EReal := Ideal.tanh ((∑ d : Fin 512, pooled x W c d * lw d) + lb)

/-- The gated pooled vector. -/
def scaled (c : Fin 5) (d : Fin 512) : EReal := gate x W lw lb c * pooled x W c d

/-! ## The whole arrays -/

/-- Batch element `b` of `x`: 4096 rows of 512 features. -/
abbrev rowsAt (X : (⟨3, ![32, 4096, 512]⟩ : Shape).Idx → EReal) (b : Fin 32) : Fin 4096 → Fin 512 → EReal := fun n k => X (ix3 b n k)
/-- `W` by row and column. -/
abbrev matOf (w : (⟨2, ![512, 5]⟩ : Shape).Idx → EReal) : Fin 512 → Fin 5 → EReal := fun k c => w (ix2 k c)
/-- The weight column by row. -/
abbrev colOf (l : (⟨2, ![512, 1]⟩ : Shape).Idx → EReal) : Fin 512 → EReal := fun k => l (ix2 k (0 : Fin 1))
/-- The one bias. -/
abbrev biasOf (v : (⟨1, ![1]⟩ : Shape).Idx → EReal) : EReal := v (ix1 (0 : Fin 1))

section
variable (X : (⟨3, ![32, 4096, 512]⟩ : Shape).Idx → EReal) (Wm : (⟨2, ![512, 5]⟩ : Shape).Idx → EReal)
  (L : (⟨2, ![512, 1]⟩ : Shape).Idx → EReal) (B : (⟨1, ![1]⟩ : Shape).Idx → EReal)

/-- The gates of every batch element, as a `32 × 5` array. -/
def gatesAll : (⟨2, ![32, 5]⟩ : Shape).Idx → EReal :=
  fun i => gate (rowsAt X (i 0)) (matOf Wm) (colOf L) (biasOf B) (i 1)

/-- The same gates with a unit axis in the middle, as the kernel's region writes them. -/
def gatesKept : (⟨3, ![32, 1, 5]⟩ : Shape).Idx → EReal :=
  fun i => gate (rowsAt X (i 0)) (matOf Wm) (colOf L) (biasOf B) (i 2)

/-- The pooled vectors of every batch element. -/
def pooledAll : (⟨3, ![32, 5, 512]⟩ : Shape).Idx → EReal :=
  fun i => pooled (rowsAt X (i 0)) (matOf Wm) (i 1) (i 2)

/-- The gated pooled vectors of every batch element. -/
def scaledAll : (⟨3, ![32, 5, 512]⟩ : Shape).Idx → EReal :=
  fun i => scaled (rowsAt X (i 0)) (matOf Wm) (colOf L) (biasOf B) (i 1) (i 2)

end

end Cert.GatedPool

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowsSum.lean ====
/-
  GENERAL LEMMA: a rank-2 array of extended reals summed along its FIRST axis — what `sum(x, axis=0)` becomes in a
  vector program — read at an index given by its coordinate.
  • `multiReduction_add_axis0_apply`: the sum over the rows of an `[a, b]` array from the zero word, at `j`, is the
    sum of column `j`.
-/
import Idealize.ShloMosaic.Lib.ValueIdx
import Idealize.ShloMosaic.PureOps.Ideal.Laws

noncomputable section

open scoped BigOperators

namespace Idealize.ShloMosaic.ValueIdx

open Idealize.ShloMosaic

/-- The sum over the rows of an `[a, b]` array of extended reals, accumulated from the zero word: at `j` it is the
    sum of column `j`. -/
theorem multiReduction_add_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibColumnOps.lean ====
/-
  GENERAL LEMMAS about a rank-2 array reduced or contracted along its FIRST axis, on the extended reals, read at an
  index given by coordinates.
  • `multiReduction_maximumf_axis0_apply`: the maximum over the rows of an `[a, b]` array from an accumulator word, at
    `j`, is the fold of `max` from that word's value over column `j`;
  • `LhsT.matmul_zero_apply`: a `tpu.matmul` into the zero accumulator whose dimension numbers contract the FIRST
    axis of both operands (a `K × M` matrix transposed, times a `K × N` matrix) has at `(c, d)` the sum over
    `k : Fin K` of left `(k, c)` · right `(k, d)`;
  • `shapeCast_a1_a_apply`: a column `[a, 1]` cast to `[a]` reads, at `i`, the column at `(i, 0)`;
  • `hostReduce_maximumf_axis1_apply`: the host's reduction by `max` of an `[a, b, c]` array along its MIDDLE axis, at
    `(i, j)`, is the fold of `max` from the initial value over the entries `(i, k, j)`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- The maximum over the rows of an `[a, b]` array of extended reals, accumulated from the word `acc`: at `j` it is the
    fold of `max`, from the value of `acc`, over column `j`. -/
theorem multiReduction_maximumf_axis0_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun k => src (ix2 k j)) := by
  refine (Ideal.multiReduction_maximumf_single src acc h hφ hacc (ix1 j)).trans ?_
  refine congrArg (fun f => (Finset.univ : Finset (Fin a)).fold max (Ideal.ofBits .f32 acc) f) ?_
  funext k
  refine congrArg src ?_
  funext c
  match c with
  | ⟨0, _⟩ => exact Fin.ext rfl
  | ⟨1, _⟩ => exact Fin.ext rfl

/-- A column `[a, 1]` cast to `[a]` reads, at `i`, the column's entry `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The host's one-operand reduction by `max` of an `[a, b, c]` array of extended reals along its middle axis: at `(i, j)`
    it is the fold of `max`, from the initial value, over the entries `(i, k, j)`. -/
theorem hostReduce_maximumf_axis1_apply {a b c : ℕ} {u : Shape} (x : (⟨3, ![a, b, c]⟩ : Shape).Idx → EReal) (init : u.Idx → EReal)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (j : Fin c) :
    Host.reduce (FloatOps.maximumf (F := Ideal) (φ := .f32)) x init h' hu (ix2 i j)
      = (Finset.univ : Finset (Fin b)).fold max (init (Shape.Idx.first hu)) (fun k => x (ix3 i k j)) := by
  refine (Host.reduce_eq_fold_single (FloatOps.maximumf (F := Ideal) (φ := .f32)) x init h' h hu (ix2 i j)).trans ?_
  show (Finset.univ : Finset (Fin b)).fold max (init (Shape.Idx.first hu)) (fun k => x (h.lift (ix2 i j) k)) = _
  refine congrArg (fun f => (Finset.univ : Finset (Fin b)).fold max (init (Shape.Idx.first hu)) f) ?_
  funext k
  refine congrArg x ?_
  funext d
  match d with
  | ⟨0, _⟩ => exact Fin.ext rfl
  | ⟨1, _⟩ => exact Fin.ext rfl
  | ⟨2, _⟩ => exact Fin.ext rfl

end Idealize.ShloMosaic.ValueIdx

namespace Idealize.ShloMosaic.LhsT

open Idealize.ShloMosaic Idealize.ShloMosaic.ValueIdx

variable {K M N : Nat}

/-- The dimension record `<[0], [0], [1], [1], [0, 1, 1, 1], [], []>`: a `K × M` matrix, transposed, times a `K × N`
    matrix. Its well-formedness is an argument: a printed record brings its own. -/
def dims (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF ⟨2, ![K, M]⟩ ⟨2, ![K, N]⟩ ⟨2, ![M, N]⟩ [0] [0] [1] [1] [] [])

/-- The left operand is read on its column axis at the entry's row. -/
theorem lhs_col (j : (⟨2, ![M, N]⟩ : Shape).Idx) (q : (dims K M N wf).contr.Idx) :
    ((dims K M N wf).lhsIdx j q 1).val = (j 0).val := by
  unfold DotDims.lhsIdx
  rw [dif_neg (show ¬(1 : Fin 2) ∈ (dims K M N wf).lhsBatch from List.not_mem_nil),
    dif_pos (show (1 : Fin 2) ∈ (dims K M N wf).lhsNonContracting from List.mem_singleton.mpr rfl)]
  rfl

/-- The right operand is read on its column axis at the entry's column. -/
theorem rhs_col (j : (⟨2, ![M, N]⟩ : Shape).Idx) (q : (dims K M N wf).contr.Idx) :
    ((dims K M N wf).rhsIdx j q 1).val = (j 1).val := by
  unfold DotDims.rhsIdx
  rw [dif_neg (show ¬(1 : Fin 2) ∈ (dims K M N wf).rhsBatch from List.not_mem_nil),
    dif_pos (show (1 : Fin 2) ∈ (dims K M N wf).rhsNonContracting from List.mem_singleton.mpr rfl)]
  rfl

/-- The contraction, re-indexed by the one contracted coordinate. -/
theorem sum_eq (D : DotDims ⟨2, ![K, M]⟩ ⟨2, ![K, N]⟩ ⟨2, ![M, N]⟩) (hD : D = dims K M N wf)
    (l : (⟨2, ![K, M]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 k (j 0)) * r (ix2 k (j 1)) := by
  subst hD
  rw [← Equiv.sum_comp (contrEquiv1 (dims K M N wf) K rfl rfl).symm]
  refine Finset.sum_congr rfl fun k _ => ?_
  have hk := contrEquiv1_symm_val (dims K M N wf) K rfl rfl k
  have el : (dims K M N wf).lhsIdx j ((contrEquiv1 (dims K M N wf) K rfl rfl).symm k) = ix2 k (j 0) :=
    funext fun a => Fin.ext (by
      match a with
      | ⟨0, _⟩ => exact ((dims K M N wf).lhsIdx_val_of_single rfl _ _).trans hk
      | ⟨1, _⟩ => exact lhs_col wf _ _)
  have er : (dims K M N wf).rhsIdx j ((contrEquiv1 (dims K M N wf) K rfl rfl).symm k) = ix2 k (j 1) :=
    funext fun a => Fin.ext (by
      match a with
      | ⟨0, _⟩ => exact ((dims K M N wf).rhsIdx_val_of_single rfl _ _).trans hk
      | ⟨1, _⟩ => exact rhs_col wf _ _)
  exact congrArg₂ (fun x y => l x * r y) el er

/-- A `tpu.matmul` into the zero accumulator contracting the first axis of both operands, at an entry. -/
theorem matmul_zero_apply {φ₁ φ₂ : FTy} (D : DotDims ⟨2, ![K, M]⟩ ⟨2, ![K, N]⟩ ⟨2, ![M, N]⟩) (hD : D = dims K M N wf)
    (prec : Option ContractPrecision) (l : FVec Ideal ⟨2, ![K, M]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 k (j 0)) * r (ix2 k (j 1)) := by
  simp only [matmul]
  rw [Ideal.matmul_constant_zero_apply]
  exact sum_eq wf D hD l r j

end Idealize.ShloMosaic.LhsT

end
-- ==== Proof.KernelBody.lean ====
/-
  What the kernel's body computes from its four input blocks, entry by entry, on the extended reals.

  The body's arithmetic is read in stages. The block of `x` loses its leading unit axis; the logits are its product
  with `W`; the column maximum and the column sum are reductions along the rows, kept as one row and repeated down
  the rows; the weights are the shifted exponentials over their column sums; the pooled vectors are the product of
  the TRANSPOSED weights with the block; the gate is `tanh` of the pooled vectors' product with the weight column plus
  the bias; the scaled vectors multiply each pooled row by its gate. A change of float format is the identity on
  the extended reals, so the narrowed operands of the three products are the operands themselves. Each stage is
  named as a vector function of the previous ones, the body's stored values are those functions by unfolding, and
  each stage read at an index is the corresponding function of `Cert.GatedPool`.
-/
import proofs.«105213_j87857851007023_2_alg».proof.Proof.Gen.KernelIdeal.Skeleton
import proofs.«105213_j87857851007023_2_alg».proof.Proof.Spec
import proofs.«105213_j87857851007023_2_alg».proof.Proof.LibKeepdims
import proofs.«105213_j87857851007023_2_alg».proof.Proof.LibRowsSum
import proofs.«105213_j87857851007023_2_alg».proof.Proof.LibPlainDot
import proofs.«105213_j87857851007023_2_alg».proof.Proof.LibColumnOps
import Idealize.ShloMosaic.Lib.ValueLayout

noncomputable section

open scoped BigOperators

namespace Cert.KernelIdeal.Body

open Cert.KernelIdeal Cert.KernelIdeal.Facts₀ Idealize.ShloMosaic Idealize.ShloMosaic.ValueIdx
open Cert.KernelIdeal.Gen (k0_pay1 k0_pay2 k0_pay3 k0_pay4 k0_pay5 k0_pay6)
open Cert.GatedPool

/-! ## The block of `x` by coordinates -/

/-- The block of `x` as 4096 rows of 512 features (its leading axis has one position). -/
abbrev rowsOf (x0 : Vec Ideal S1x4096x512 .f32) : Fin 4096 → Fin 512 → EReal := fun n k => x0 (ix3 (0 : Fin 1) n k)
/- (The blocks of `W`, of the weight column and of the bias are whole arrays: `matOf`, `colOf`, `biasOf` read them.) -/

/-! ## The stages as vector functions -/

/-- The block as a `4096 × 512` matrix, in the narrow format the products take. -/
def xs (x0 : Vec Ideal S1x4096x512 .f32) : FVec Ideal S4096x512 .bf16 :=
  truncf .bf16 (shapeCast S4096x512 x0 shapeCasts_S1x4096x512_S4096x512) bitsLt_bf16_f32

/-- The logits: the block times `W`. -/
def logits (x0 : Vec Ideal S1x4096x512 .f32) (x1 : Vec Ideal S512x5 .f32) : FVec Ideal S4096x5 .f32 :=
  matmul dot_S4096x512_S512x5_S4096x5_1_0_0_1_n_n none (xs x0) (truncf .bf16 x1 bitsLt_bf16_f32) (constant S4096x5 .f32 0x00000000#32)

/-- Each column's maximum over the rows, repeated down the rows. -/
def colMax (e : FVec Ideal S4096x5 .f32) : FVec Ideal S4096x5 .f32 :=
  broadcastTo S4096x5 (shapeCast S1x5 (multiReduction .maximumf [0] S5 e 0xFF800000#32 reduces_S4096x5_S5 (.inl rfl) rfl) shapeCasts_S5_S1x5) broadcasts_S1x5_S4096x5

/-- The shifted exponentials. -/
def expos (e : FVec Ideal S4096x5 .f32) : FVec Ideal S4096x5 .f32 := exp (subf e (colMax e))

/-- Each column's sum over the rows, repeated down the rows. -/
def colSum (v : FVec Ideal S4096x5 .f32) : FVec Ideal S4096x5 .f32 :=
  broadcastTo S4096x5 (shapeCast S1x5 (multiReduction .add [0] S5 v 0x00000000#32 reduces_S4096x5_S5 (.inl rfl) rfl) shapeCasts_S5_S1x5) broadcasts_S1x5_S4096x5

/-- The softmax weights, in the narrow format. -/
def weights (e : FVec Ideal S4096x5 .f32) : FVec Ideal S4096x5 .bf16 :=
  truncf .bf16 (divf (expos e) (colSum (expos e))) bitsLt_bf16_f32

/-- The pooled vectors are the transposed weights times the block. -/
theorem pay2_eq (x0 : Vec Ideal S1x4096x512 .f32) (x1 : Vec Ideal S512x5 .f32) :
    k0_pay2 x0 x1 = matmul dot_S4096x5_S4096x512_S5x512_0_0_1_1_n_n none (weights (logits x0 x1)) (xs x0) (constant S5x512 .f32 0x00000000#32) := rfl

/-- The pooled vectors' product with the weight column. -/
def linCol (x0 : Vec Ideal S1x4096x512 .f32) (x1 : Vec Ideal S512x5 .f32) (x2 : Vec Ideal S512x1 .f32) : FVec Ideal S5x1 .f32 :=
  matmul dot_S5x512_S512x1_S5x1_1_0_0_1_n_n none (truncf .bf16 (k0_pay2 x0 x1) bitsLt_bf16_f32) (truncf .bf16 x2 bitsLt_bf16_f32) (constant S5x1 .f32 0x00000000#32)

/-- The gates: `tanh` of that product, as a vector, plus the bias. -/
theorem pay3_eq (x0 : Vec Ideal S1x4096x512 .f32) (x1 : Vec Ideal S512x5 .f32) (x2 : Vec Ideal S512x1 .f32) (x3 : Vec Ideal S1 .f32) :
    k0_pay3 x0 x1 x2 x3 = tanh (addf (shapeCast S5 (linCol x0 x1 x2) shapeCasts_S5x1_S5) (broadcast S5 (extractAt ![0] x3 inpos_S1_p0))) := rfl

/-! ## The stages at an index -/

theorem xs_apply (x0 : Vec Ideal S1x4096x512 .f32) (n : Fin 4096) (k : Fin 512) : xs x0 (ix2 n k) = x0 (ix3 (0 : Fin 1) n k) := by
  unfold xs
  exact shapeCast_1ab_ab_apply x0 shapeCasts_S1x4096x512_S4096x512 n k

theorem logits_apply (x0 : Vec Ideal S1x4096x512 .f32) (x1 : Vec Ideal S512x5 .f32) (n : Fin 4096) (c : Fin 5) :
    logits x0 x1 (ix2 n c) = logit (rowsOf x0) (matOf x1) n c := by
  unfold logits logit
  refine (PlainDot.matmul_zero_apply dot_S4096x512_S512x5_S4096x5_1_0_0_1_n_n rfl none (xs x0) (truncf .bf16 x1 bitsLt_bf16_f32) (ix2 n c)).trans ?_
  refine Finset.sum_congr rfl fun k _ => ?_
  exact congrArg₂ (fun a b : EReal => a * b) (xs_apply x0 n k) rfl

theorem colMax_apply (e : FVec Ideal S4096x5 .f32) (n : Fin 4096) (c : Fin 5) :
    colMax e (ix2 n c) = (Finset.univ : Finset (Fin 4096)).fold max negInf (fun k => e (ix2 k c)) := by
  unfold colMax
  exact (broadcastTo_1b_ab_apply _ broadcasts_S1x5_S4096x5 n c).trans
    ((shapeCast_a_1a_apply _ shapeCasts_S5_S1x5 (0 : Fin 1) c).trans
      (multiReduction_maximumf_axis0_apply e 0xFF800000#32 reduces_S4096x5_S5 (.inl rfl) rfl c))

theorem colSum_apply (v : FVec Ideal S4096x5 .f32) (n : Fin 4096) (c : Fin 5) :
    colSum v (ix2 n c) = ∑ k : Fin 4096, v (ix2 k c) := by
  unfold colSum
  exact (broadcastTo_1b_ab_apply _ broadcasts_S1x5_S4096x5 n c).trans
    ((shapeCast_a_1a_apply _ shapeCasts_S5_S1x5 (0 : Fin 1) c).trans
      (multiReduction_add_axis0_apply v reduces_S4096x5_S5 (.inl rfl) rfl c))

theorem expos_apply (e : FVec Ideal S4096x5 .f32) (n : Fin 4096) (c : Fin 5) :
    expos e (ix2 n c) = Ideal.exp (e (ix2 n c) - (Finset.univ : Finset (Fin 4096)).fold max negInf (fun k => e (ix2 k c))) := by
  unfold expos
  show Ideal.exp (e (ix2 n c) - colMax e (ix2 n c)) = _
  rw [colMax_apply]

theorem weights_apply (e : FVec Ideal S4096x5 .f32) (n : Fin 4096) (c : Fin 5) :
    weights e (ix2 n c) = Ideal.div (expos e (ix2 n c)) (∑ k : Fin 4096, expos e (ix2 k c)) := by
  unfold weights
  show Ideal.div (expos e (ix2 n c)) (colSum (expos e) (ix2 n c)) = _
  rw [colSum_apply]

/-- The shifted exponentials of the logits are the specification's. -/
theorem expos_logits (x0 : Vec Ideal S1x4096x512 .f32) (x1 : Vec Ideal S512x5 .f32) (n : Fin 4096) (c : Fin 5) :
    expos (logits x0 x1) (ix2 n c) = expo (rowsOf x0) (matOf x1) n c := by
  rw [expos_apply]
  unfold expo peak
  simp only [logits_apply]

/-- The weights of the logits are the specification's. -/
theorem weights_logits (x0 : Vec Ideal S1x4096x512 .f32) (x1 : Vec Ideal S512x5 .f32) (n : Fin 4096) (c : Fin 5) :
    weights (logits x0 x1) (ix2 n c) = weight (rowsOf x0) (matOf x1) n c := by
  rw [weights_apply]
  unfold weight total
  simp only [expos_logits]

/-- THE POOLED VECTORS: entry `(c, d)` of the body's second product is `pooled c d` of the blocks. -/
theorem pay2_apply (x0 : Vec Ideal S1x4096x512 .f32) (x1 : Vec Ideal S512x5 .f32) (c : Fin 5) (d : Fin 512) :
    k0_pay2 x0 x1 (ix2 c d) = pooled (rowsOf x0) (matOf x1) c d := by
  rw [pay2_eq]
  refine (LhsT.matmul_zero_apply dot_S4096x5_S4096x512_S5x512_0_0_1_1_n_n_wf dot_S4096x5_S4096x512_S5x512_0_0_1_1_n_n rfl none
    (weights (logits x0 x1)) (xs x0) (ix2 c d)).trans ?_
  unfold pooled
  refine Finset.sum_congr rfl fun n _ => ?_
  exact congrArg₂ (fun a b : EReal => a * b) (weights_logits x0 x1 n c) (xs_apply x0 n d)

theorem linCol_apply (x0 : Vec Ideal S1x4096x512 .f32) (x1 : Vec Ideal S512x5 .f32) (x2 : Vec Ideal S512x1 .f32) (c : Fin 5) :
    linCol x0 x1 x2 (ix2 c (0 : Fin 1)) = ∑ d : Fin 512, pooled (rowsOf x0) (matOf x1) c d * colOf x2 d := by
  unfold linCol
  refine (PlainDot.matmul_zero_apply dot_S5x512_S512x1_S5x1_1_0_0_1_n_n rfl none (truncf .bf16 (k0_pay2 x0 x1) bitsLt_bf16_f32)
    (truncf .bf16 x2 bitsLt_bf16_f32) (ix2 c (0 : Fin 1))).trans ?_
  refine Finset.sum_congr rfl fun d _ => ?_
  exact congrArg₂ (fun a b : EReal => a * b) (pay2_apply x0 x1 c d) rfl

/-- THE GATES: entry `c` of the body's `tanh` is `gate c` of the blocks. -/
theorem pay3_apply (x0 : Vec Ideal S1x4096x512 .f32) (x1 : Vec Ideal S512x5 .f32) (x2 : Vec Ideal S512x1 .f32) (x3 : Vec Ideal S1 .f32) (c : Fin 5) :
    k0_pay3 x0 x1 x2 x3 (ix1 c) = gate (rowsOf x0) (matOf x1) (colOf x2) (biasOf x3) c := by
  rw [pay3_eq]
  unfold gate
  show Ideal.tanh (shapeCast S5 (linCol x0 x1 x2) shapeCasts_S5x1_S5 (ix1 c) + extractAt ![0] x3 inpos_S1_p0) = _
  rw [shapeCast_a1_a_apply, linCol_apply]
  refine congrArg (fun b : EReal => Ideal.tanh ((∑ d : Fin 512, pooled (rowsOf x0) (matOf x1) c d * colOf x2 d) + b)) ?_
  unfold extractAt
  exact congrArg x3 (funext fun a => match a with | ⟨0, _⟩ => Fin.ext rfl)

/-- THE SCALED VECTORS: entry `(c, d)` of the body's last product is `scaled c d` of the blocks. -/
theorem pay4_apply (x0 : Vec Ideal S1x4096x512 .f32) (x1 : Vec Ideal S512x5 .f32) (x2 : Vec Ideal S512x1 .f32) (x3 : Vec Ideal S1 .f32) (c : Fin 5) (d : Fin 512) :
    k0_pay4 x0 x1 x2 x3 (ix2 c d) = scaled (rowsOf x0) (matOf x1) (colOf x2) (biasOf x3) c d := by
  unfold k0_pay4 scaled
  show broadcastTo S5x512 (shapeCast S5x1 (k0_pay3 x0 x1 x2 x3) shapeCasts_S5_S5x1) broadcasts_S5x1_S5x512 (ix2 c d) * k0_pay2 x0 x1 (ix2 c d) = _
  rw [broadcastTo_a1_ab_apply, shapeCast_a_a1_apply, pay3_apply, pay2_apply]

/-! ## The three stored values at an index -/

/-- The gates as stored: a `[1, 1, 5]` block. -/
theorem pay5_apply (x0 : Vec Ideal S1x4096x512 .f32) (x1 : Vec Ideal S512x5 .f32) (x2 : Vec Ideal S512x1 .f32) (x3 : Vec Ideal S1 .f32) (u v : Fin 1) (c : Fin 5) :
    k0_pay5 x0 x1 x2 x3 (ix3 u v c) = gate (rowsOf x0) (matOf x1) (colOf x2) (biasOf x3) c := by
  unfold k0_pay5
  show shapeCast S1x1x5 (shapeCast S1x5 (k0_pay3 x0 x1 x2 x3) shapeCasts_S5_S1x5) shapeCasts_S1x5_S1x1x5 (ix3 u v c) = _
  rw [shapeCast_ab_1ab_apply, shapeCast_a_1a_apply, pay3_apply]

/-- The pooled vectors as stored: a `[1, 5, 512]` block. -/
theorem pay6_apply (x0 : Vec Ideal S1x4096x512 .f32) (x1 : Vec Ideal S512x5 .f32) (u : Fin 1) (c : Fin 5) (d : Fin 512) :
    k0_pay6 x0 x1 (ix3 u c d) = pooled (rowsOf x0) (matOf x1) c d := by
  unfold k0_pay6
  show shapeCast S1x5x512 (k0_pay2 x0 x1) shapeCasts_S5x512_S1x5x512 (ix3 u c d) = _
  rw [shapeCast_ab_1ab_apply, pay2_apply]

/-- The scaled vectors as stored: a `[1, 5, 512]` block. -/
theorem pay1_pay4_apply (x0 : Vec Ideal S1x4096x512 .f32) (x1 : Vec Ideal S512x5 .f32) (x2 : Vec Ideal S512x1 .f32) (x3 : Vec Ideal S1 .f32) (u : Fin 1) (c : Fin 5) (d : Fin 512) :
    k0_pay1 (k0_pay4 x0 x1 x2 x3) (ix3 u c d) = scaled (rowsOf x0) (matOf x1) (colOf x2) (biasOf x3) c d := by
  unfold k0_pay1
  show shapeCast S1x5x512 (k0_pay4 x0 x1 x2 x3) shapeCasts_S5x512_S1x5x512 (ix3 u c d) = _
  rw [shapeCast_ab_1ab_apply, pay4_apply]

/-! ## The same at any index of the stored block -/

theorem pay5_at (x0 : Vec Ideal S1x4096x512 .f32) (x1 : Vec Ideal S512x5 .f32) (x2 : Vec Ideal S512x1 .f32) (x3 : Vec Ideal S1 .f32) (j : S1x1x5.Idx) :
    k0_pay5 x0 x1 x2 x3 j = gate (rowsOf x0) (matOf x1) (colOf x2) (biasOf x3) (j 2) := by
  obtain ⟨u, v, c, rfl⟩ : ∃ (u : Fin 1) (v : Fin 1) (c : Fin 5), j = ix3 u v c := ⟨j 0, j 1, j 2, eq_ix3 j⟩
  exact pay5_apply x0 x1 x2 x3 u v c

theorem pay6_at (x0 : Vec Ideal S1x4096x512 .f32) (x1 : Vec Ideal S512x5 .f32) (j : S1x5x512.Idx) :
    k0_pay6 x0 x1 j = pooled (rowsOf x0) (matOf x1) (j 1) (j 2) := by
  obtain ⟨u, c, d, rfl⟩ : ∃ (u : Fin 1) (c : Fin 5) (d : Fin 512), j = ix3 u c d := ⟨j 0, j 1, j 2, eq_ix3 j⟩
  exact pay6_apply x0 x1 u c d

theorem pay1_pay4_at (x0 : Vec Ideal S1x4096x512 .f32) (x1 : Vec Ideal S512x5 .f32) (x2 : Vec Ideal S512x1 .f32) (x3 : Vec Ideal S1 .f32) (j : S1x5x512.Idx) :
    k0_pay1 (k0_pay4 x0 x1 x2 x3) j = scaled (rowsOf x0) (matOf x1) (colOf x2) (biasOf x3) (j 1) (j 2) := by
  obtain ⟨u, c, d, rfl⟩ : ∃ (u : Fin 1) (c : Fin 5) (d : Fin 512), j = ix3 u c d := ⟨j 0, j 1, j 2, eq_ix3 j⟩
  exact pay1_pay4_apply x0 x1 x2 x3 u c d

end Cert.KernelIdeal.Body

end
-- ==== Proof.KernelArrays.lean ====
/-
  From what each grid point writes back to the three arrays after the region, and the gates' last reshape.

  Grid point `t` stages batch element `t` of `x` and the whole of `W`, of the weight column and of the bias; so the
  body's three stored blocks are the gates, the pooled vectors and the scaled vectors OF BATCH ELEMENT `t`, and the block
  they are written to is row `t` of each output array. The 32 blocks tile the arrays, so after the region each array is
  the whole-array function of `Cert.GatedPool`; the host line after the region drops the gates' middle unit axis.
-/
import proofs.«105213_j87857851007023_2_alg».proof.Proof.Gen.KernelIdeal.Frame
import proofs.«105213_j87857851007023_2_alg».proof.Proof.KernelBody
import Idealize.ShloMosaic.Lib.Pipeline.Value
import Idealize.ShloMosaic.Lib.StableHlo.Run
import Idealize.ShloMosaic.Lib.Tactic

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open Cert.GatedPool Cert.KernelIdeal.Body

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch element a grid point works on: the point's own number. -/
def batchOf (t : Fin cfg0.N) : Fin 32 := ⟨t.val, lt_of_lt_of_eq t.isLt N_0⟩

/-- The printed index maps, decided over the 32 points: the block of `x` and the three output blocks are at row `t`,
    the other three inputs at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## The input blocks at a point -/

/-- The block of `x` at point `t` is batch element `t`. -/
theorem rows_blk (c : Dev nD) (t : Fin cfg0.N) : rowsOf (iblk m c 0 t) = rowsAt (V m c main_arg0) (batchOf t) := by
  obtain ⟨e0, e1, e2, -⟩ := idx_facts t
  funext n k
  show iblk m c 0 t (ix3 (0 : Fin 1) n k) = V m c main_arg0 (ix3 (batchOf t) n k)
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 512 + 1 * k.val = k.val; omega

/-- The block of `W` at any point is `W`. -/
theorem mat_blk (c : Dev nD) (t : Fin cfg0.N) : matOf (iblk m c 1 t) = matOf (V m c main_arg1) := by
  obtain ⟨-, -, -, e0, e1, -⟩ := idx_facts t
  funext k q
  show iblk m c 1 t (ix2 k q) = V m c main_arg1 (ix2 k q)
  unfold iblk
  rw [View.read_apply]
  show V m c main_arg1 _ = V m c main_arg1 _
  refine congrArg (V m c main_arg1) ?_
  funext a
  apply Fin.ext
  match a with
  | ⟨0, _⟩ => show win0_1.index t (0 : Fin 2) * 512 + 1 * k.val = k.val; omega
  | ⟨1, _⟩ => show win0_1.index t (1 : Fin 2) * 5 + 1 * q.val = q.val; omega

/-- The block of the weight column at any point is the column. -/
theorem col_blk (c : Dev nD) (t : Fin cfg0.N) : colOf (iblk m c 2 t) = colOf (V m c main_arg2) := by
  obtain ⟨-, -, -, -, -, e0, e1, -⟩ := idx_facts t
  funext k
  show iblk m c 2 t (ix2 k (0 : Fin 1)) = V m c main_arg2 (ix2 k (0 : Fin 1))
  unfold iblk
  rw [View.read_apply]
  show V m c main_arg2 _ = V m c main_arg2 _
  refine congrArg (V m c main_arg2) ?_
  funext a
  apply Fin.ext
  match a with
  | ⟨0, _⟩ => show win0_2.index t (0 : Fin 2) * 512 + 1 * k.val = k.val; omega
  | ⟨1, _⟩ => show win0_2.index t (1 : Fin 2) * 1 + 1 * 0 = 0; omega

/-- The block of the bias at any point is the bias. -/
theorem bias_blk (c : Dev nD) (t : Fin cfg0.N) : biasOf (iblk m c 3 t) = biasOf (V m c main_arg3) := by
  obtain ⟨-, -, -, -, -, -, -, e0, -⟩ := idx_facts t
  show iblk m c 3 t (ix1 (0 : Fin 1)) = V m c main_arg3 (ix1 (0 : Fin 1))
  unfold iblk
  rw [View.read_apply]
  show V m c main_arg3 _ = V m c main_arg3 _
  refine congrArg (V m c main_arg3) ?_
  funext a
  apply Fin.ext
  match a with
  | ⟨0, _⟩ => show win0_3.index t (0 : Fin 1) * 1 + 1 * 0 = 0; omega

/-! ## The gates (output window 4) -/

/-- Where point `t`'s gate block sits in the `[32, 1, 5]` array. -/
theorem emb4 (t : Fin cfg0.N) (j : S1x1x5.Idx) :
    ((cfg0.win 4).blk t).view.emb j = (ix3 (batchOf t) (0 : Fin 1) (j 2) : S32x1x5.Idx) := by
  obtain ⟨-, -, -, -, -, -, -, -, e0, e1, e2, -⟩ := idx_facts t
  have h0 : (j 0).val < 1 := (j 0).isLt
  have h1 : (j 1).val < 1 := (j 1).isLt
  funext a
  apply Fin.ext
  match a with
  | ⟨0, _⟩ => show win0_4.index t (0 : Fin 3) * 1 + 1 * (j 0).val = t.val; omega
  | ⟨1, _⟩ => show win0_4.index t (1 : Fin 3) * 1 + 1 * (j 1).val = 0; omega
  | ⟨2, _⟩ => show win0_4.index t (2 : Fin 3) * 5 + 1 * (j 2).val = (j 2).val; omega

/-- WHAT POINT `t` WRITES BACK to the gates' array is block `t` of the whole-array gates. -/
theorem flushed4_eq (c : Dev nD) (t : Fin cfg0.N) :
    (dats m 0 c).flushed 4 t = ((cfg0.win 4).blk t).view.read (Elt Ideal)
      (gatesKept (V m c main_arg0) (V m c main_arg1) (V m c main_arg2) (V m c main_arg3)) := by
  show (cfg0.win 4).cut (grid0.coords t) ((dats m 0 c).after 4 t) = _
  rw [after0_4]
  unfold out0_4
  rw [View.canon_unit_zero hz3]
  simp only [View.ld_unit_zero (S := S1x4096x512) hz3, View.ld_unit_zero (S := S512x5) hz2, View.ld_unit_zero (S := S512x1) hz2,
    View.ld_unit_zero (S := S1) hz1]
  funext j
  show k0_pay5 (iblk m c 0 t) (iblk m c 1 t) (iblk m c 2 t) (iblk m c 3 t) j
    = gatesKept (V m c main_arg0) (V m c main_arg1) (V m c main_arg2) (V m c main_arg3) (((cfg0.win 4).blk t).view.emb j)
  rw [emb4 t j]
  refine (pay5_at _ _ _ _ j).trans ?_
  rw [rows_blk m c t, mat_blk m c t, col_blk m c t, bias_blk m c t]
  rfl

theorem mem_blk4 (t : Fin cfg0.N) (i : S32x1x5.Idx) :
    i ∈ ((cfg0.win 4).blk t).view.set ↔ ∀ a : Fin 3, win0_4.index t a * S1x1x5.size a ≤ (i a).val ∧ (i a).val < win0_4.index t a * S1x1x5.size a + S1x1x5.size a := by
  show i ∈ ((View.whole main_v0_0).slice (win0_4.rect t)).set ↔ _
  rw [View.set_slice_whole, Rect.mem_set_unit]
  exact Iff.rfl

/-- Every index of the gates' array is in the block of the point numbered by its batch coordinate. -/
theorem cover4 (i : S32x1x5.Idx) : ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 5 := (i 2).isLt
  refine ⟨⟨(i 0).val, lt_of_lt_of_eq h0 N_0.symm⟩, flush0_4 _, ?_⟩
  rw [mem_blk4]
  obtain ⟨-, -, -, -, -, -, -, -, e0, e1, e2, -⟩ := idx_facts ⟨(i 0).val, lt_of_lt_of_eq h0 N_0.symm⟩
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 5 ≤ (i 2).val ∧ (i 2).val < win0_4.index _ (2 : Fin 3) * 5 + 5; rw [e2]; omega

/-- THE GATES' ARRAY after the region. -/
theorem final4 (c : Dev nD) : (dats m 0 c).arrAt 4 cfg0.N
    = gatesKept (V m c main_arg0) (V m c main_arg1) (V m c main_arg2) (V m c main_arg3) :=
  (dats m 0 c).arrAt_eq_of_cover 4 _ (fun t _ => flushed4_eq m c t) cover4

/-! ## The pooled vectors (output window 5) and the scaled vectors (output window 6) -/

/-- Where point `t`'s `[1, 5, 512]` block sits in a `[32, 5, 512]` array: at row `t` (both windows have this index map). -/
theorem emb5 (t : Fin cfg0.N) (j : S1x5x512.Idx) :
    ((cfg0.win 5).blk t).view.emb j = (ix3 (batchOf t) (j 1) (j 2) : S32x5x512.Idx) := by
  obtain ⟨-, -, -, -, -, -, -, -, -, -, -, e0, e1, e2, -⟩ := idx_facts t
  have h0 : (j 0).val < 1 := (j 0).isLt
  funext a
  apply Fin.ext
  match a with
  | ⟨0, _⟩ => show win0_5.index t (0 : Fin 3) * 1 + 1 * (j 0).val = t.val; omega
  | ⟨1, _⟩ => show win0_5.index t (1 : Fin 3) * 5 + 1 * (j 1).val = (j 1).val; omega
  | ⟨2, _⟩ => show win0_5.index t (2 : Fin 3) * 512 + 1 * (j 2).val = (j 2).val; omega

theorem emb6 (t : Fin cfg0.N) (j : S1x5x512.Idx) :
    ((cfg0.win 6).blk t).view.emb j = (ix3 (batchOf t) (j 1) (j 2) : S32x5x512.Idx) := by
  obtain ⟨-, -, -, -, -, -, -, -, -, -, -, -, -, -, e0, e1, e2⟩ := idx_facts t
  have h0 : (j 0).val < 1 := (j 0).isLt
  funext a
  apply Fin.ext
  match a with
  | ⟨0, _⟩ => show win0_6.index t (0 : Fin 3) * 1 + 1 * (j 0).val = t.val; omega
  | ⟨1, _⟩ => show win0_6.index t (1 : Fin 3) * 5 + 1 * (j 1).val = (j 1).val; omega
  | ⟨2, _⟩ => show win0_6.index t (2 : Fin 3) * 512 + 1 * (j 2).val = (j 2).val; omega

/-- WHAT POINT `t` WRITES BACK to the pooled vectors' array is block `t` of the whole-array pooled vectors. -/
theorem flushed5_eq (c : Dev nD) (t : Fin cfg0.N) :
    (dats m 0 c).flushed 5 t = ((cfg0.win 5).blk t).view.read (Elt Ideal) (pooledAll (V m c main_arg0) (V m c main_arg1)) := by
  show (cfg0.win 5).cut (grid0.coords t) ((dats m 0 c).after 5 t) = _
  rw [after0_5]
  unfold out0_5
  rw [View.canon_unit_zero hz3]
  simp only [View.ld_unit_zero (S := S1x4096x512) hz3, View.ld_unit_zero (S := S512x5) hz2]
  funext j
  show k0_pay6 (iblk m c 0 t) (iblk m c 1 t) j
    = pooledAll (V m c main_arg0) (V m c main_arg1) (((cfg0.win 5).blk t).view.emb j)
  rw [emb5 t j]
  refine (pay6_at _ _ j).trans ?_
  rw [rows_blk m c t, mat_blk m c t]
  rfl

/-- WHAT POINT `t` WRITES BACK to the scaled vectors' array is block `t` of the whole-array scaled vectors. -/
theorem flushed6_eq (c : Dev nD) (t : Fin cfg0.N) :
    (dats m 0 c).flushed 6 t = ((cfg0.win 6).blk t).view.read (Elt Ideal)
      (scaledAll (V m c main_arg0) (V m c main_arg1) (V m c main_arg2) (V m c main_arg3)) := by
  show (cfg0.win 6).cut (grid0.coords t) ((dats m 0 c).after 6 t) = _
  rw [after0_6]
  unfold out0_6
  rw [View.canon_unit_zero hz3]
  simp only [View.ld_unit_zero (S := S1x4096x512) hz3, View.ld_unit_zero (S := S512x5) hz2, View.ld_unit_zero (S := S512x1) hz2,
    View.ld_unit_zero (S := S1) hz1]
  funext j
  show k0_pay1 (k0_pay4 (iblk m c 0 t) (iblk m c 1 t) (iblk m c 2 t) (iblk m c 3 t)) j
    = scaledAll (V m c main_arg0) (V m c main_arg1) (V m c main_arg2) (V m c main_arg3) (((cfg0.win 6).blk t).view.emb j)
  rw [emb6 t j]
  refine (pay1_pay4_at _ _ _ _ j).trans ?_
  rw [rows_blk m c t, mat_blk m c t, col_blk m c t, bias_blk m c t]
  rfl

theorem mem_blk5 (t : Fin cfg0.N) (i : S32x5x512.Idx) :
    i ∈ ((cfg0.win 5).blk t).view.set ↔ ∀ a : Fin 3, win0_5.index t a * S1x5x512.size a ≤ (i a).val ∧ (i a).val < win0_5.index t a * S1x5x512.size a + S1x5x512.size a := by
  show i ∈ ((View.whole main_v0_1).slice (win0_5.rect t)).set ↔ _
  rw [View.set_slice_whole, Rect.mem_set_unit]
  exact Iff.rfl

theorem mem_blk6 (t : Fin cfg0.N) (i : S32x5x512.Idx) :
    i ∈ ((cfg0.win 6).blk t).view.set ↔ ∀ a : Fin 3, win0_6.index t a * S1x5x512.size a ≤ (i a).val ∧ (i a).val < win0_6.index t a * S1x5x512.size a + S1x5x512.size a := by
  show i ∈ ((View.whole main_v0_2).slice (win0_6.rect t)).set ↔ _
  rw [View.set_slice_whole, Rect.mem_set_unit]
  exact Iff.rfl

theorem cover5 (i : S32x5x512.Idx) : ∃ t : Fin cfg0.N, (cfg0.win 5).flush t = true ∧ i ∈ ((cfg0.win 5).blk t).view.set := by
  have h0 : (i 0).val < 32 := (i 0).isLt
  have h1 : (i 1).val < 5 := (i 1).isLt
  have h2 : (i 2).val < 512 := (i 2).isLt
  refine ⟨⟨(i 0).val, lt_of_lt_of_eq h0 N_0.symm⟩, flush0_5 _, ?_⟩
  rw [mem_blk5]
  obtain ⟨-, -, -, -, -, -, -, -, -, -, -, e0, e1, e2, -⟩ := idx_facts ⟨(i 0).val, lt_of_lt_of_eq h0 N_0.symm⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 5 ≤ (i 1).val ∧ (i 1).val < win0_5.index _ (1 : Fin 3) * 5 + 5; rw [e1]; omega
  | ⟨2, _⟩ => show win0_5.index _ (2 : Fin 3) * 512 ≤ (i 2).val ∧ (i 2).val < win0_5.index _ (2 : Fin 3) * 512 + 512; rw [e2]; omega

theorem cover6 (i : S32x5x512.Idx) : ∃ t : Fin cfg0.N, (cfg0.win 6).flush t = true ∧ i ∈ ((cfg0.win 6).blk t).view.set := by
  have h0 : (i 0).val < 32 := (i 0).isLt
  have h1 : (i 1).val < 5 := (i 1).isLt
  have h2 : (i 2).val < 512 := (i 2).isLt
  refine ⟨⟨(i 0).val, lt_of_lt_of_eq h0 N_0.symm⟩, flush0_6 _, ?_⟩
  rw [mem_blk6]
  obtain ⟨-, -, -, -, -, -, -, -, -, -, -, -, -, -, e0, e1, e2⟩ := idx_facts ⟨(i 0).val, lt_of_lt_of_eq h0 N_0.symm⟩
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 5 ≤ (i 1).val ∧ (i 1).val < win0_6.index _ (1 : Fin 3) * 5 + 5; rw [e1]; omega
  | ⟨2, _⟩ => show win0_6.index _ (2 : Fin 3) * 512 ≤ (i 2).val ∧ (i 2).val < win0_6.index _ (2 : Fin 3) * 512 + 512; rw [e2]; omega

/-- THE POOLED VECTORS' ARRAY after the region. -/
theorem final5 (c : Dev nD) : (dats m 0 c).arrAt 5 cfg0.N = pooledAll (V m c main_arg0) (V m c main_arg1) :=
  (dats m 0 c).arrAt_eq_of_cover 5 _ (fun t _ => flushed5_eq m c t) cover5

/-- THE SCALED VECTORS' ARRAY after the region. -/
theorem final6 (c : Dev nD) : (dats m 0 c).arrAt 6 cfg0.N
    = scaledAll (V m c main_arg0) (V m c main_arg1) (V m c main_arg2) (V m c main_arg3) :=
  (dats m 0 c).arrAt_eq_of_cover 6 _ (fun t _ => flushed6_eq m c t) cover6

/-! ## The host line after the region: the gates' middle unit axis dropped -/

/-- Dropping the middle unit axis of the `[32, 1, 5]` gates gives the `[32, 5]` gates. -/
theorem gates_cast (X : (⟨3, ![32, 4096, 512]⟩ : Shape).Idx → EReal) (Wm : (⟨2, ![512, 5]⟩ : Shape).Idx → EReal)
    (L : (⟨2, ![512, 1]⟩ : Shape).Idx → EReal) (B : (⟨1, ![1]⟩ : Shape).Idx → EReal) (h : S32x1x5.ShapeCasts S32x5) :
    shapeCast S32x5 (gatesKept X Wm L B) h = gatesAll X Wm L B := by
  funext i
  obtain ⟨b, q, rfl⟩ : ∃ (b : Fin 32) (q : Fin 5), i = ix2 b q := ⟨i 0, i 1, eq_ix2 i⟩
  refine (shapeCast_apply (gatesKept X Wm L B) h (ix2 b q) (ix3 b (0 : Fin 1) q) ?_).trans rfl
  rw [Shape.rowMajor_val_three, Shape.rowMajor_val_two]
  show (b.val * 1 + 0) * 5 + q.val = b.val * 5 + q.val
  omega

/-- What the line after the region leaves in the first result. -/
theorem tail_gates (c : Dev nD) :
    Pipeline.afterTail₀ cfgs (dats m) 0 (V0 m) [hostOps1] c main_v1
      = gatesAll (V m c main_arg0) (V m c main_arg1) (V m c main_arg2) (V m c main_arg3) := by
  unfold Pipeline.afterTail₀
  show StableHlo.after hostOps1 _ (Proc.devRef .tc main_v1) = _
  after_results
  show shapeCast S32x5 (Pipeline.withArrays (cfgs 0).spec c (V0 m c) (fun w => (dats m 0 c).arrAt w (cfgs 0).N)
    (Proc.devRef .tc main_v0_0)) Facts₀.shapeCasts_S32x1x5_S32x5 = _
  have e : Pipeline.withArrays (cfgs 0).spec c (V0 m c) (fun w => (dats m 0 c).arrAt w (cfgs 0).N) (Proc.devRef .tc main_v0_0)
      = gatesKept (V m c main_arg0) (V m c main_arg1) (V m c main_arg2) (V m c main_arg3) :=
    (Pipeline.withArrays_arr spec0 launch0.win.arr_inj c _ _ 4).trans (final4 m c)
  exact (congrArg (fun v : S32x1x5.Idx → EReal => shapeCast S32x5 v Facts₀.shapeCasts_S32x1x5_S32x5) e).trans
    (gates_cast _ _ _ _ _)

/-! ## The run, read -/

/-- Every weakly fair execution of the kernel's program terminates with the three results at the whole-array gates,
    pooled vectors and scaled vectors of the argument arrays, and the arguments unchanged. -/
theorem run : θ_run defs (onTc (τ := τ) (main (F := Ideal))) ⟨m, fun _ => 0, ρ⟩ fun r => ∀ c : Dev nD,
      r.2.mem ((c.tc : Thread nD τ).loc main_v1)
        = gatesAll (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v0_1)
        = pooledAll (m ((c.tc : Thread nD τ).loc main_arg0)) (m ((c.tc : Thread nD τ).loc main_arg1))
      ∧ r.2.mem ((c.tc : Thread nD τ).loc main_v0_2)
        = scaledAll (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v1 (Pipeline.mem_restRefs_of main_v1 (by decide) (by decide))).trans (tail_gates m c),
        ((h c).1 5).trans (final5 m c),
        ((h c).1 6).trans (final6 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c)))⟩)
    (run_main m ρ)

end Cert.KernelIdeal.Arrays

end
-- ==== Proof.RefValue.lean ====
/-
  What the reference computes, entry by entry, on the extended reals.

  The reference's operations are read one at a time at an index: the logits of every batch element are a product
  contracting the feature axis; the column maximum is a fold of `max` from −∞ along the row axis (and taking `max` with
  −∞ once more changes nothing, the fold being at least its starting value); the shifted exponentials, their
  sums along the row axis from zero, the quotients; the pooled vectors are a product contracting the row axis
  batch element by batch element; the gates and the scaled vectors follow. Each stage is the corresponding function
  of `Cert.GatedPool` at batch element `b`, and the three results are its whole-array functions.
-/
import proofs.«105213_j87857851007023_2_alg».proof.Proof.Gen.ReferenceIdeal.Read
import proofs.«105213_j87857851007023_2_alg».proof.Proof.Spec
import proofs.«105213_j87857851007023_2_alg».proof.Proof.LibColumnOps

noncomputable section

open scoped BigOperators

namespace Cert.ReferenceIdeal.RefValue

open Cert.ReferenceIdeal Cert.ReferenceIdeal.Read Idealize.ShloMosaic Idealize.ShloMosaic.ValueIdx
open Cert.GatedPool

variable (X : (⟨S32x4096x512, .f32⟩ : BufTy).Contents (Elt Ideal)) (Wm : (⟨S512x5, .f32⟩ : BufTy).Contents (Elt Ideal))
  (L : (⟨S512x1, .f32⟩ : BufTy).Contents (Elt Ideal)) (B : (⟨S1, .f32⟩ : BufTy).Contents (Elt Ideal))

/-- The row axis of a `[32, 4096, 5]` array can be reduced away. -/
theorem reduces_rows : S32x4096x5.Reduces [1] S32x5 := by decide

/-- The logits. -/
theorem v0_apply (b : Fin 32) (n : Fin 4096) (c : Fin 5) :
    val_main_v0 (F := Ideal) X Wm (ix3 b n c) = logit (rowsAt X b) (matOf Wm) n c := by
  rw [val_main_v0_apply]
  unfold logit
  refine Finset.sum_congr rfl fun k _ => ?_
  refine congrArg₂ (fun a b : EReal => a * b) (congrArg X ?_) (congrArg Wm ?_)
  · funext a; match a with | ⟨0, _⟩ => rfl | ⟨1, _⟩ => rfl | ⟨2, _⟩ => rfl
  · funext a; match a with | ⟨0, _⟩ => rfl | ⟨1, _⟩ => rfl

/-- The column maximum: the fold of `max` from −∞ over the rows. -/
theorem v1_apply (b : Fin 32) (c : Fin 5) :
    val_main_v1 (F := Ideal) X Wm (ix2 b c) = peak (rowsAt X b) (matOf Wm) c := by
  unfold val_main_v1
  refine (hostReduce_maximumf_axis1_apply (val_main_v0 (F := Ideal) X Wm) (val_main_cst (F := Ideal))
    Facts₀.reducesTo_S32x4096x5_S32x5_d1 reduces_rows Facts₀.h_S_ b c).trans ?_
  unfold peak
  exact congrArg (fun f => (Finset.univ : Finset (Fin 4096)).fold max negInf f) (funext fun n => v0_apply X Wm b n c)

/-- Taking `max` with −∞ again leaves the column maximum as it is. -/
theorem v3_apply (b : Fin 32) (c : Fin 5) :
    val_main_v3 (F := Ideal) X Wm (ix2 b c) = peak (rowsAt X b) (matOf Wm) c := by
  show max negInf (val_main_v1 (F := Ideal) X Wm (ix2 b c)) = _
  rw [v1_apply]
  exact max_eq_right ((Finset.le_fold_max _).mpr (Or.inl le_rfl))

/-- The column maximum repeated along the rows. -/
theorem v5_apply (b : Fin 32) (n : Fin 4096) (c : Fin 5) :
    val_main_v5 (F := Ideal) X Wm (ix3 b n c) = peak (rowsAt X b) (matOf Wm) c := by
  rw [val_main_v5_apply, val_main_v4_apply]
  refine (congrArg (val_main_v3 (F := Ideal) X Wm) ?_).trans (v3_apply X Wm b c)
  funext a; match a with | ⟨0, _⟩ => rfl | ⟨1, _⟩ => rfl

/-- The shifted exponentials. -/
theorem v7_apply (b : Fin 32) (n : Fin 4096) (c : Fin 5) :
    val_main_v7 (F := Ideal) X Wm (ix3 b n c) = expo (rowsAt X b) (matOf Wm) n c := by
  show Ideal.exp (val_main_v0 (F := Ideal) X Wm (ix3 b n c) - val_main_v5 (F := Ideal) X Wm (ix3 b n c)) = _
  rw [v0_apply, v5_apply]
  rfl

/-- Their sums over the rows. -/
theorem v8_apply (b : Fin 32) (c : Fin 5) :
    val_main_v8 (F := Ideal) X Wm (ix2 b c) = total (rowsAt X b) (matOf Wm) c := by
  rw [val_main_v8_apply]
  show Ideal.ofBits .f32 0x00000000#32 + _ = _
  rw [Ideal.ofBits_zero_f32, zero_add]
  unfold total
  refine Finset.sum_congr rfl fun k _ => ?_
  refine (congrArg (val_main_v7 (F := Ideal) X Wm) ?_).trans (v7_apply X Wm b k c)
  funext a; match a with | ⟨0, _⟩ => rfl | ⟨1, _⟩ => rfl | ⟨2, _⟩ => rfl

/-- The sums repeated along the rows. -/
theorem v10_apply (b : Fin 32) (n : Fin 4096) (c : Fin 5) :
    val_main_v10 (F := Ideal) X Wm (ix3 b n c) = total (rowsAt X b) (matOf Wm) c := by
  rw [val_main_v10_apply, val_main_v9_apply]
  refine (congrArg (val_main_v8 (F := Ideal) X Wm) ?_).trans (v8_apply X Wm b c)
  funext a; match a with | ⟨0, _⟩ => rfl | ⟨1, _⟩ => rfl

/-- The softmax weights. -/
theorem v11_apply (b : Fin 32) (n : Fin 4096) (c : Fin 5) :
    val_main_v11 (F := Ideal) X Wm (ix3 b n c) = weight (rowsAt X b) (matOf Wm) n c := by
  show Ideal.div (val_main_v7 (F := Ideal) X Wm (ix3 b n c)) (val_main_v10 (F := Ideal) X Wm (ix3 b n c)) = _
  rw [v7_apply, v10_apply]
  rfl

/-- THE POOLED VECTORS. -/
theorem v12_apply (b : Fin 32) (c : Fin 5) (d : Fin 512) :
    val_main_v12 (F := Ideal) X Wm (ix3 b c d) = pooled (rowsAt X b) (matOf Wm) c d := by
  rw [val_main_v12_apply]
  unfold pooled
  refine Finset.sum_congr rfl fun k _ => ?_
  refine congrArg₂ (fun a b : EReal => a * b) ((congrArg (val_main_v11 (F := Ideal) X Wm) ?_).trans (v11_apply X Wm b k c)) (congrArg X ?_)
  · funext a; match a with | ⟨0, _⟩ => rfl | ⟨1, _⟩ => rfl | ⟨2, _⟩ => rfl
  · funext a; match a with | ⟨0, _⟩ => rfl | ⟨1, _⟩ => rfl | ⟨2, _⟩ => rfl

/-- THE GATES, still with their trailing unit axis. -/
theorem v17_apply (b : Fin 32) (c : Fin 5) (u : Fin 1) :
    val_main_v17 (F := Ideal) X Wm L B (ix3 b c u) = gate (rowsAt X b) (matOf Wm) (colOf L) (biasOf B) c := by
  show Ideal.tanh (val_main_v13 (F := Ideal) X Wm L (ix3 b c u) + val_main_v15 (F := Ideal) B (ix3 b c u)) = _
  rw [val_main_v13_apply, val_main_v15_apply, val_main_v14_apply]
  unfold gate
  have hu : u = 0 := Subsingleton.elim _ _
  subst hu
  refine congrArg₂ (fun s t : EReal => Ideal.tanh (s + t)) (Finset.sum_congr rfl fun k _ => ?_) (congrArg B ?_)
  · refine congrArg₂ (fun a b : EReal => a * b) ((congrArg (val_main_v12 (F := Ideal) X Wm) ?_).trans (v12_apply X Wm b c k)) (congrArg L ?_)
    · funext a; match a with | ⟨0, _⟩ => rfl | ⟨1, _⟩ => rfl | ⟨2, _⟩ => rfl
    · funext a; match a with | ⟨0, _⟩ => rfl | ⟨1, _⟩ => rfl
  · funext a; match a with | ⟨0, _⟩ => rfl

/-- THE SCALED VECTORS. -/
theorem v19_apply (b : Fin 32) (c : Fin 5) (d : Fin 512) :
    val_main_v19 (F := Ideal) X Wm L B (ix3 b c d) = scaled (rowsAt X b) (matOf Wm) (colOf L) (biasOf B) c d := by
  show val_main_v18 (F := Ideal) X Wm L B (ix3 b c d) * val_main_v12 (F := Ideal) X Wm (ix3 b c d) = _
  rw [val_main_v18_apply, v12_apply]
  unfold scaled
  refine congrArg (fun g : EReal => g * pooled (rowsAt X b) (matOf Wm) c d) ?_
  refine (congrArg (val_main_v17 (F := Ideal) X Wm L B) ?_).trans (v17_apply X Wm L B b c (0 : Fin 1))
  funext a; match a with | ⟨0, _⟩ => rfl | ⟨1, _⟩ => rfl | ⟨2, _⟩ => rfl

/-- The gates with the unit axis dropped. -/
theorem v20_apply (b : Fin 32) (c : Fin 5) :
    val_main_v20 (F := Ideal) X Wm L B (ix2 b c) = gate (rowsAt X b) (matOf Wm) (colOf L) (biasOf B) c := by
  rw [val_main_v20_apply]
  refine (congrArg (val_main_v17 (F := Ideal) X Wm L B) ?_).trans (v17_apply X Wm L B b c (0 : Fin 1))
  have hb : b.val < 32 := b.isLt
  have hc : c.val < 5 := c.isLt
  funext a
  match a with
  | ⟨0, _⟩ => exact Fin.ext (by show (b.val * 5 + c.val) / 5 = b.val; omega)
  | ⟨1, _⟩ => exact Fin.ext (by show (b.val * 5 + c.val) / 1 % 5 = c.val; omega)
  | ⟨2, _⟩ => rfl

/-! ## The three results as whole arrays -/

theorem v20_eq : val_main_v20 (F := Ideal) X Wm L B = gatesAll X Wm L B := by
  funext i
  obtain ⟨b, c, rfl⟩ : ∃ (b : Fin 32) (c : Fin 5), i = ix2 b c := ⟨i 0, i 1, eq_ix2 i⟩
  exact v20_apply X Wm L B b c

theorem v12_eq : val_main_v12 (F := Ideal) X Wm = pooledAll X Wm := by
  funext i
  obtain ⟨b, c, d, rfl⟩ : ∃ (b : Fin 32) (c : Fin 5) (d : Fin 512), i = ix3 b c d := ⟨i 0, i 1, i 2, eq_ix3 i⟩
  exact v12_apply X Wm b c d

theorem v19_eq : val_main_v19 (F := Ideal) X Wm L B = scaledAll X Wm L B := by
  funext i
  obtain ⟨b, c, d, rfl⟩ : ∃ (b : Fin 32) (c : Fin 5) (d : Fin 512), i = ix3 b c d := ⟨i 0, i 1, i 2, eq_ix3 i⟩
  exact v19_apply X Wm L B b c d

end Cert.ReferenceIdeal.RefValue

end
-- ==== Proof.lean ====
/-
  The kernel and its reference compute one function of their arguments on the extended reals.

  For each of the 32 batch elements both programs form the logits `x · W`, turn each of the five logit columns
  into softmax weights over the 4096 rows (the column's maximum, a fold of `max` from −∞, is subtracted before the
  exponential; the weights are the exponentials over their column sum), pool the rows with these weights, pass
  the pooled vectors' inner products with the weight column plus the bias through `tanh`, and scale each pooled
  vector by its gate (`Cert.GatedPool`, Proof/Spec.lean). The kernel does this one batch element per grid point
  with three matrix products into zero accumulators and row reductions; the reference with three contractions
  over whole arrays, reductions along the row axis and broadcasts. On the extended reals a product into a zero
  accumulator is the plain sum of products, a change of float format is the identity, the kernel's and the host's
  `exp`, quotient and `tanh` are the same functions, and both column maxima are the same fold — so the two
  programs' results agree entry by entry with no condition on the inputs: the precondition is not used.

  Proof/KernelBody.lean reads the kernel body's stored values at an index; Proof/KernelArrays.lean goes from the
  blocks the grid points write back to the arrays after the region and through the reshape after it;
  Proof/RefValue.lean reads the reference's operations at an index. The kernel's idealization is the kernel's own text
  read on the extended reals (the claim lists no rewritten operation, and its `preserves` conjunct is `True`).
-/
import proofs.«105213_j87857851007023_2_alg».proof.Defs
import proofs.«105213_j87857851007023_2_alg».proof.Proof.Gen.Kernel
import proofs.«105213_j87857851007023_2_alg».proof.Proof.Gen.Kernel.Skeleton
import proofs.«105213_j87857851007023_2_alg».proof.Proof.Gen.Kernel.Launch
import proofs.«105213_j87857851007023_2_alg».proof.Proof.Gen.Kernel.Points
import proofs.«105213_j87857851007023_2_alg».proof.Proof.Gen.Kernel.Frame
import proofs.«105213_j87857851007023_2_alg».proof.Proof.Gen.KernelIdeal
import proofs.«105213_j87857851007023_2_alg».proof.Proof.Gen.KernelIdeal.Skeleton
import proofs.«105213_j87857851007023_2_alg».proof.Proof.Gen.KernelIdeal.Launch
import proofs.«105213_j87857851007023_2_alg».proof.Proof.Gen.KernelIdeal.Points
import proofs.«105213_j87857851007023_2_alg».proof.Proof.Gen.KernelIdeal.Frame
import proofs.«105213_j87857851007023_2_alg».proof.Proof.Gen.ReferenceIdeal
import proofs.«105213_j87857851007023_2_alg».proof.Proof.Gen.Pre_finite_inputs
import proofs.«105213_j87857851007023_2_alg».proof.Proof.Gen.ReferenceIdeal.Run
import proofs.«105213_j87857851007023_2_alg».proof.Proof.Gen.ReferenceIdeal.Read
import proofs.«105213_j87857851007023_2_alg».proof.Proof.KernelArrays
import proofs.«105213_j87857851007023_2_alg».proof.Proof.RefValue
import Idealize.ShloMosaic.Adequacy
import Idealize.ShloMosaic.Init

noncomputable section

namespace Cert.Proof

open Idealize.ShloMosaic Idealize.ShloMosaic.TcCoe Idealize.SL.Sem
open Cert.GatedPool

/-- The kernel's program terminates, nothing faulting, with its arguments unchanged. -/
theorem frame_kernel : Cert.frame_Kernel := fun m ρ _ => Cert.Kernel.Gen.frame m ρ

/-- So does the same program read on the extended reals. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From arguments that agree, the kernel's three result arrays and the reference's are the whole-array gates, pooled
    vectors and scaled vectors of those arguments. -/
theorem algebraic : Cert.algebraic_KernelIdeal_ReferenceIdeal := by
  intro m ρ m' ρ' _ hagree
  refine ⟨fun c => gatesAll (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => pooledAll (m ((c.tc : Thread _ _).loc Cert.KernelIdeal.main_arg0)) (m ((c.tc : Thread _ _).loc Cert.KernelIdeal.main_arg1)),
    fun c => scaledAll (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    Cert.KernelIdeal.Arrays.run m ρ, ?_⟩
  refine (θ_run Cert.ReferenceIdeal.defs _ _).mono (fun _ h c => ?_) (Cert.ReferenceIdeal.Value.run (F := Ideal) m' ρ')
  obtain ⟨h20, h12, h19, hargs⟩ := h c
  obtain ⟨a0, a1, a2, a3⟩ := hagree c
  refine ⟨h20.trans ?_, h12.trans ?_, h19.trans ?_, hargs⟩
  · rw [Cert.ReferenceIdeal.Read.val_main_v20_eq, Cert.ReferenceIdeal.RefValue.v20_eq, a0, a1, a2, a3]
  · rw [Cert.ReferenceIdeal.Read.val_main_v12_eq, Cert.ReferenceIdeal.RefValue.v12_eq, a0, a1]
  · rw [Cert.ReferenceIdeal.Read.val_main_v19_eq, Cert.ReferenceIdeal.RefValue.v19_eq, a0, a1, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
